-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S64x12x1024 : Shape := ⟨3, ![64, 12, 1024]⟩
abbrev S64x12 : Shape := ⟨2, ![64, 12]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S64x12x1024 : S_.BroadcastsInDim S64x12x1024 (![] : Fin 0 → Fin S64x12x1024.rank)
  reducesTo_S64x12x1024_S_d0_1_2 : S64x12x1024.ReducesTo [0, 1, 2] S_
  bcast_S_S64x12 : S_.BroadcastsInDim S64x12 (![] : Fin 0 → Fin S64x12.rank)
  reducesTo_S64x12_S_d0_1 : S64x12.ReducesTo [0, 1] S_

variable [Facts]

def fn {F : FTy → Type} [FloatOps F] (main_arg0 : FVec F S16384x1024 .f32) (main_arg1 : FVec F S64x12x1024 .f32) (main_arg2 : FVec F S64x12 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S64x12x1024 .f32 := Host.absf main_arg1
  let main_cst_0 : FVec F S_ .f32 := constant S_ .f32 0x7F800000#32
  let main_v5 : FVec F S64x12x1024 .f32 := broadcastInDim S64x12x1024 ![] bcast_S_S64x12x1024 main_cst_0
  let main_v6 : IVec S64x12x1024 1 := cmpf .olt main_v4 main_v5
  let main_c_1 : IVec S_ 1 := constantI S_ 1 1#1
  let main_v7 : IVec S_ 1 := (fun x v => Host.reduce IntOp.andi x v reducesTo_S64x12x1024_S_d0_1_2 h_S_) main_v6 main_c_1
  let main_v8 : IVec S_ 1 := andi main_v3 main_v7
  let main_v9 : FVec F S64x12 .f32 := Host.absf main_arg2
  let main_cst_2 : FVec F S_ .f32 := constant S_ .f32 0x7F800000#32
  let main_v10 : FVec F S64x12 .f32 := broadcastInDim S64x12 ![] bcast_S_S64x12 main_cst_2
  let main_v11 : IVec S64x12 1 := cmpf .olt main_v9 main_v10
  let main_c_3 : IVec S_ 1 := constantI S_ 1 1#1
  let main_v12 : IVec S_ 1 := (fun x v => Host.reduce IntOp.andi x v reducesTo_S64x12_S_d0_1 h_S_) main_v11 main_c_3
  let main_v13 : IVec S_ 1 := andi main_v8 main_v12
  main_v13
-- ==== Kernel.lean ====
abbrev S16384x1024 : Shape := ⟨2, ![16384, 1024]⟩
abbrev S64x12x1024 : Shape := ⟨3, ![64, 12, 1024]⟩
abbrev S64x12 : Shape := ⟨2, ![64, 12]⟩
abbrev S64x8x1024 : Shape := ⟨3, ![64, 8, 1024]⟩
abbrev S64x4x1024 : Shape := ⟨3, ![64, 4, 1024]⟩
abbrev S1024x8x64 : Shape := ⟨3, ![1024, 8, 64]⟩
abbrev S1024x512 : Shape := ⟨2, ![1024, 512]⟩
abbrev S1024x4x64 : Shape := ⟨3, ![1024, 4, 64]⟩
abbrev S1024x256 : Shape := ⟨2, ![1024, 256]⟩
abbrev S_ : Shape := ⟨0, ![]⟩
abbrev S64x8 : Shape := ⟨2, ![64, 8]⟩
abbrev S8x64 : Shape := ⟨2, ![8, 64]⟩
abbrev S1x512 : Shape := ⟨2, ![1, 512]⟩
abbrev S64x4 : Shape := ⟨2, ![64, 4]⟩
abbrev S4x64 : Shape := ⟨2, ![4, 64]⟩
abbrev S1x256 : Shape := ⟨2, ![1, 256]⟩
abbrev S16384x64 : Shape := ⟨2, ![16384, 64]⟩
abbrev S2048x1024 : Shape := ⟨2, ![2048, 1024]⟩
abbrev S2048x64 : Shape := ⟨2, ![2048, 64]⟩
abbrev S2048x512 : Shape := ⟨2, ![2048, 512]⟩
abbrev S2048x256 : Shape := ⟨2, ![2048, 256]⟩
abbrev S2048 : Shape := ⟨1, ![2048]⟩
abbrev S2048x1 : Shape := ⟨2, ![2048, 1]⟩

abbrev nBuf : Space → Nat
  | .hbm => 48
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S64x12x1024, .f32⟩
  | .hbm, ⟨2, _⟩ => ⟨S64x12, .f32⟩
  | .hbm, ⟨3, _⟩ => ⟨S64x8x1024, .f32⟩
  | .hbm, ⟨4, _⟩ => ⟨S64x4x1024, .f32⟩
  | .hbm, ⟨5, _⟩ => ⟨S1024x8x64, .f32⟩
  | .hbm, ⟨6, _⟩ => ⟨S1024x512, .f32⟩
  | .hbm, ⟨7, _⟩ => ⟨S1024x4x64, .f32⟩
  | .hbm, ⟨8, _⟩ => ⟨S1024x256, .f32⟩
  | .hbm, ⟨9, _⟩ => ⟨S1024x512, .bf16⟩
  | .hbm, ⟨10, _⟩ => ⟨S1024x256, .bf16⟩
  | .hbm, ⟨11, _⟩ => ⟨S64x12x1024, .f32⟩
  | .hbm, ⟨12, _⟩ => ⟨S_, .f32⟩
  | .hbm, ⟨13, _⟩ => ⟨S64x12, .f32⟩
  | .hbm, ⟨14, _⟩ => ⟨S_, .f32⟩
  | .hbm, ⟨15, _⟩ => ⟨S64x12, .f32⟩
  | .hbm, ⟨16, _⟩ => ⟨S64x12, .f32⟩
  | .hbm, ⟨17, _⟩ => ⟨S64x12, .f32⟩
  | .hbm, ⟨18, _⟩ => ⟨S64x12, .f32⟩
  | .hbm, ⟨19, _⟩ => ⟨S64x12, .i1⟩
  | .hbm, ⟨20, _⟩ => ⟨S64x12, .f32⟩
  | .hbm, ⟨21, _⟩ => ⟨S64x12, .f32⟩
  | .hbm, ⟨22, _⟩ => ⟨S64x12, .f32⟩
  | .hbm, ⟨23, _⟩ => ⟨S64x12, .f32⟩
  | .hbm, ⟨24, _⟩ => ⟨S64x12, .f32⟩
  | .hbm, ⟨25, _⟩ => ⟨S64x12, .f32⟩
  | .hbm, ⟨26, _⟩ => ⟨S64x12, .f32⟩
  | .hbm, ⟨27, _⟩ => ⟨S64x12, .f32⟩
  | .hbm, ⟨28, _⟩ => ⟨S_, .f32⟩
  | .hbm, ⟨29, _⟩ => ⟨S64x12, .f32⟩
  | .hbm, ⟨30, _⟩ => ⟨S64x12, .f32⟩
  | .hbm, ⟨31, _⟩ => ⟨S64x12, .f32⟩
  | .hbm, ⟨32, _⟩ => ⟨S_, .f32⟩
  | .hbm, ⟨33, _⟩ => ⟨S64x12, .f32⟩
  | .hbm, ⟨34, _⟩ => ⟨S64x12, .f32⟩
  | .hbm, ⟨35, _⟩ => ⟨S64x8, .f32⟩
  | .hbm, ⟨36, _⟩ => ⟨S8x64, .f32⟩
  | .hbm, ⟨37, _⟩ => ⟨S1x512, .f32⟩
  | .hbm, ⟨38, _⟩ => ⟨S64x4, .f32⟩
  | .hbm, ⟨39, _⟩ => ⟨S4x64, .f32⟩
  | .hbm, ⟨40, _⟩ => ⟨S1x256, .f32⟩
  | .hbm, ⟨41, _⟩ => ⟨S64x8, .f32⟩
  | .hbm, ⟨42, _⟩ => ⟨S8x64, .f32⟩
  | .hbm, ⟨43, _⟩ => ⟨S1x512, .f32⟩
  | .hbm, ⟨44, _⟩ => ⟨S64x4, .f32⟩
  | .hbm, ⟨45, _⟩ => ⟨S4x64, .f32⟩
  | .hbm, ⟨46, _⟩ => ⟨S1x256, .f32⟩
  | .hbm, ⟨47, _⟩ => ⟨S16384x64, .f32⟩
  | .local _ .vmem, ⟨0, _⟩ => ⟨S2048x1024, .f32⟩
  | .local _ .vmem, ⟨1, _⟩ => ⟨S2048x1024, .f32⟩
  | .local _ .vmem, ⟨2, _⟩ => ⟨S1024x512, .bf16⟩
  | .local _ .vmem, ⟨3, _⟩ => ⟨S1024x256, .bf16⟩
  | .local _ .vmem, ⟨4, _⟩ => ⟨S1x512, .f32⟩
  | .local _ .vmem, ⟨5, _⟩ => ⟨S1x512, .f32⟩
  | .local _ .vmem, ⟨6, _⟩ => ⟨S1x256, .f32⟩
  | .local _ .vmem, ⟨7, _⟩ => ⟨S1x256, .f32⟩
  | .local _ .vmem, ⟨8, _⟩ => ⟨S2048x64, .f32⟩
  | .local _ .vmem, ⟨9, _⟩ => ⟨S2048x64, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S64x12x1024_S64x8x1024_0_0_0 : S64x12x1024.Slices ![0, 0, 0] S64x8x1024
  slices_S64x12x1024_S64x4x1024_0_8_0 : S64x12x1024.Slices ![0, 8, 0] S64x4x1024
  transposes_S64x8x1024_S1024x8x64_2_1_0 : S64x8x1024.Transposes [2, 1, 0] S1024x8x64
  shapeCasts_S1024x8x64_S1024x512 : S1024x8x64.ShapeCasts S1024x512
  transposes_S64x4x1024_S1024x4x64_2_1_0 : S64x4x1024.Transposes [2, 1, 0] S1024x4x64
  shapeCasts_S1024x4x64_S1024x256 : S1024x4x64.ShapeCasts S1024x256
  bitsLt_bf16_f32 : FTy.bits .bf16 < FTy.bits .f32
  reducesTo_S64x12x1024_S64x12_d2 : S64x12x1024.ReducesTo [2] S64x12
  h_S_ : 0 < S_.numel
  bcast_S_S64x12 : S_.BroadcastsInDim S64x12 (![] : Fin 0 → Fin S64x12.rank)
  slices_S64x12_S64x8_0_0 : S64x12.Slices ![0, 0] S64x8
  transposes_S64x8_S8x64_1_0 : S64x8.Transposes [1, 0] S8x64
  shapeCasts_S8x64_S1x512 : S8x64.ShapeCasts S1x512
  slices_S64x12_S64x4_0_8 : S64x12.Slices ![0, 8] S64x4
  transposes_S64x4_S4x64_1_0 : S64x4.Transposes [1, 0] S4x64
  shapeCasts_S4x64_S1x256 : S4x64.ShapeCasts S1x256
  inb_S2048x1024_S2048x1024_0_0 : ∀ a, (![0, 0] : Fin 2 → Nat) a + S2048x1024.size a ≤ S2048x1024.size a
  h_S2048x1024 : 0 < S2048x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S2048x1024_S2048 : S2048x1024.Reduces [1] S2048
  shapeCasts_S2048_S2048x1 : S2048.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S2048x1_S2048x512 : S2048x1.Broadcasts S2048x512
  broadcasts_S1x512_S2048x512 : S1x512.Broadcasts S2048x512
  broadcasts_S2048x1_S2048x256 : S2048x1.Broadcasts S2048x256
  broadcasts_S1x256_S2048x256 : S1x256.Broadcasts S2048x256
  slices_S2048x512_o0_0_S2048x64 : S2048x512.Slices ![0, 0] S2048x64
  slices_S2048x512_o0_64_S2048x64 : S2048x512.Slices ![0, 64] S2048x64
  slices_S2048x512_o0_128_S2048x64 : S2048x512.Slices ![0, 128] S2048x64
  slices_S2048x512_o0_192_S2048x64 : S2048x512.Slices ![0, 192] S2048x64
  slices_S2048x512_o0_256_S2048x64 : S2048x512.Slices ![0, 256] S2048x64
  slices_S2048x512_o0_320_S2048x64 : S2048x512.Slices ![0, 320] S2048x64
  slices_S2048x512_o0_384_S2048x64 : S2048x512.Slices ![0, 384] S2048x64
  slices_S2048x512_o0_448_S2048x64 : S2048x512.Slices ![0, 448] S2048x64
  slices_S2048x256_o0_0_S2048x64 : S2048x256.Slices ![0, 0] S2048x64
  slices_S2048x256_o0_64_S2048x64 : S2048x256.Slices ![0, 64] S2048x64
  slices_S2048x256_o0_128_S2048x64 : S2048x256.Slices ![0, 128] S2048x64
  slices_S2048x256_o0_192_S2048x64 : S2048x256.Slices ![0, 192] S2048x64
  inb_S2048x64_S2048x64_0_0 : ∀ a, (![0, 0] : Fin 2 → Nat) a + S2048x64.size a ≤ S2048x64.size a
  h_S2048x64 : 0 < S2048x64.numel
  dot_S2048x1024_S1024x512_S2048x512_1_0_0_1_n_n_wf : DotDims.WF S2048x1024 S1024x512 S2048x512 [1] [0] [0] [1] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x64.size a ≤ S16384x64.size a
  hwx0_7 : ∀ i : grid0.Coords, EltTy.bits .f32 = 32 ∨ (Rect.block (s := S16384x64) S2048x64.size (cc0_transform_7 i) (hinb0_7 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S2048x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S64x12x1024 : Shape := ⟨3, ![64, 12, 1024]⟩
abbrev S64x12 : Shape := ⟨2, ![64, 12]⟩
abbrev S_ : Shape := ⟨0, ![]⟩
abbrev S16384 : Shape := ⟨1, ![16384]⟩
abbrev S16384x64x12 : Shape := ⟨3, ![16384, 64, 12]⟩
abbrev S16384x1x1 : Shape := ⟨3, ![16384, 1, 1]⟩
abbrev S1x64x12 : Shape := ⟨3, ![1, 64, 12]⟩
abbrev S16384x64x8 : Shape := ⟨3, ![16384, 64, 8]⟩
abbrev S16384x64x4 : Shape := ⟨3, ![16384, 64, 4]⟩
abbrev S16384x64 : Shape := ⟨2, ![16384, 64]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S64x12x1024, .f32⟩
  | .hbm, ⟨2, _⟩ => ⟨S64x12, .f32⟩
  | .hbm, ⟨3, _⟩ => ⟨S64x12, .f32⟩
  | .hbm, ⟨4, _⟩ => ⟨S64x12, .f32⟩
  | .hbm, ⟨5, _⟩ => ⟨S_, .f32⟩
  | .hbm, ⟨6, _⟩ => ⟨S64x12, .f32⟩
  | .hbm, ⟨7, _⟩ => ⟨S64x12, .f32⟩
  | .hbm, ⟨8, _⟩ => ⟨S64x12, .f32⟩
  | .hbm, ⟨9, _⟩ => ⟨S_, .f32⟩
  | .hbm, ⟨10, _⟩ => ⟨S64x12, .f32⟩
  | .hbm, ⟨11, _⟩ => ⟨S64x12, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S64x12x1024, .f32⟩
  | .hbm, ⟨16, _⟩ => ⟨S_, .f32⟩
  | .hbm, ⟨17, _⟩ => ⟨S64x12, .f32⟩
  | .hbm, ⟨18, _⟩ => ⟨S16384x64x12, .f32⟩
  | .hbm, ⟨19, _⟩ => ⟨S16384x1x1, .f32⟩
  | .hbm, ⟨20, _⟩ => ⟨S1x64x12, .f32⟩
  | .hbm, ⟨21, _⟩ => ⟨S16384x64x12, .f32⟩
  | .hbm, ⟨22, _⟩ => ⟨S16384x64x12, .f32⟩
  | .hbm, ⟨23, _⟩ => ⟨S16384x64x12, .f32⟩
  | .hbm, ⟨24, _⟩ => ⟨S_, .f32⟩
  | .hbm, ⟨25, _⟩ => ⟨S16384x64x12, .f32⟩
  | .hbm, ⟨26, _⟩ => ⟨S16384x64x12, .f32⟩
  | .hbm, ⟨27, _⟩ => ⟨S16384x64x12, .f32⟩
  | .hbm, ⟨28, _⟩ => ⟨S16384x64x12, .f32⟩
  | .hbm, ⟨29, _⟩ => ⟨S1x64x12, .f32⟩
  | .hbm, ⟨30, _⟩ => ⟨S16384x64x12, .f32⟩
  | .hbm, ⟨31, _⟩ => ⟨S16384x64x12, .f32⟩
  | .hbm, ⟨32, _⟩ => ⟨S16384x64x12, .f32⟩
  | .hbm, ⟨33, _⟩ => ⟨S16384x64x8, .f32⟩
  | .hbm, ⟨34, _⟩ => ⟨S16384x64x4, .f32⟩
  | .hbm, ⟨35, _⟩ => ⟨S_, .f32⟩
  | .hbm, ⟨36, _⟩ => ⟨S16384x64, .f32⟩
  | .hbm, ⟨37, _⟩ => ⟨S_, .f32⟩
  | .hbm, ⟨38, _⟩ => ⟨S16384x64, .f32⟩
  | .hbm, ⟨39, _⟩ => ⟨S16384x64, .f32⟩
  | .hbm, ⟨40, _⟩ => ⟨S_, .f32⟩
  | .hbm, ⟨41, _⟩ => ⟨S16384x64, .f32⟩
  | .hbm, ⟨42, _⟩ => ⟨S16384x64, .f32⟩
  | .hbm, ⟨43, _⟩ => ⟨S_, .f32⟩
  | .hbm, ⟨44, _⟩ => ⟨S16384x64, .f32⟩
  | .hbm, ⟨45, _⟩ => ⟨S16384x64, .f32⟩
  | .hbm, ⟨46, _⟩ => ⟨S_, .f32⟩
  | .hbm, ⟨47, _⟩ => ⟨S16384x64, .f32⟩
  | .hbm, ⟨48, _⟩ => ⟨S_, .f32⟩
  | .hbm, ⟨49, _⟩ => ⟨S16384x64, .f32⟩
  | .hbm, ⟨50, _⟩ => ⟨S16384x64, .f32⟩
  | .hbm, ⟨51, _⟩ => ⟨S16384x64, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]

class Facts₀ : Prop where
  bcast_S_S64x12 : S_.BroadcastsInDim S64x12 (![] : Fin 0 → Fin S64x12.rank)
  reducesTo_S16384x1024_S16384_d1 : S16384x1024.ReducesTo [1] S16384
  h_S_ : 0 < S_.numel
  reducesTo_S64x12x1024_S64x12_d2 : S64x12x1024.ReducesTo [2] S64x12
  bcast_S16384_S16384x1x1_0 : S16384.BroadcastsInDim S16384x1x1 (![0] : Fin 1 → Fin S16384x1x1.rank)
  bcast_S64x12_S1x64x12_1_2 : S64x12.BroadcastsInDim S1x64x12 (![1, 2] : Fin 2 → Fin S1x64x12.rank)
  bcast_S16384x1x1_S16384x64x12_0_1_2 : S16384x1x1.BroadcastsInDim S16384x64x12 (![0, 1, 2] : Fin 3 → Fin S16384x64x12.rank)
  bcast_S1x64x12_S16384x64x12_0_1_2 : S1x64x12.BroadcastsInDim S16384x64x12 (![0, 1, 2] : Fin 3 → Fin S16384x64x12.rank)
  bcast_S_S16384x64x12 : S_.BroadcastsInDim S16384x64x12 (![] : Fin 0 → Fin S16384x64x12.rank)
  slices_S16384x64x12_S16384x64x8_0_0_0 : S16384x64x12.Slices ![0, 0, 0] S16384x64x8
  slices_S16384x64x12_S16384x64x4_0_0_8 : S16384x64x12.Slices ![0, 0, 8] S16384x64x4
  reducesTo_S16384x64x8_S16384x64_d2 : S16384x64x8.ReducesTo [2] S16384x64
  bcast_S_S16384x64 : S_.BroadcastsInDim S16384x64 (![] : Fin 0 → Fin S16384x64.rank)
  reducesTo_S16384x64x4_S16384x64_d2 : S16384x64x4.ReducesTo [2] S16384x64
  dot_S16384x1024_S64x12x1024_S16384x64x12_1_2_0_01_n_n_wf : DotDims.WF S16384x1024 S64x12x1024 S16384x64x12 [1] [2] [0] [0, 1] [] []

variable [Facts₀]

def dot_S16384x1024_S64x12x1024_S16384x64x12_1_2_0_01_n_n : DotDims S16384x1024 S64x12x1024 S16384x64x12 where
  lhsContracting := [1]
  rhsContracting := [2]
  lhsNonContracting := [0]
  rhsNonContracting := [0, 1]
  lhsBatch := []
  rhsBatch := []
  wf := dot_S16384x1024_S64x12x1024_S16384x64x12_1_2_0_01_n_n_wf

class Facts : Prop extends Facts₀ where

variable [Facts]
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.Spec.lean ====
/-
  The layer, as one function of its three argument arrays, on the extended reals.

  For a row `b` of `X` (16384 rows of 1024 entries), a class `o` (64 of them) and a centre `c` (12 per class: eight
  positive centres, then four extra nodes) with mean row `M o c` and width parameter `R o c`:
    activation b o c = exp ( -( (|X b|² + |M o c|²) - 2·⟨X b, M o c⟩ ) · 1 / (2·σ·σ) ),   σ = log (1 + exp (R o c)),
  and the layer's entry (b, o) is
    ( max over the eight centres · 9 - sum over the eight centres ) / 8  -  ( sum over the four nodes ) / 4.
  The float constants stay the words the programs print; only their order of combination is fixed here.

  Also here: the two ways of writing σ agree on a finite argument (the stable form max(0,r) + log(1 + exp(-|0 - r|)) is
  log(1 + exp r) for real r), and a maximum folded from -∞ over eight values is their left-nested maximum.
-/
import Idealize.ShloMosaic.PureOps.Ideal
import Idealize.ShloMosaic.PureOps.Ideal.Laws
import Idealize.ShloMosaic.Lib.ValueIdx

noncomputable section

namespace Cert.RadialLayer

open Idealize.ShloMosaic Idealize.ShloMosaic.ValueIdx

abbrev SX : Shape := ⟨2, ![16384, 1024]⟩
abbrev SM : Shape := ⟨3, ![64, 12, 1024]⟩
abbrev SR : Shape := ⟨2, ![64, 12]⟩
abbrev SO : Shape := ⟨2, ![16384, 64]⟩

/-- The printed words of the constants. -/
abbrev w0 : EReal := Ideal.ofBits .f32 0x00000000#32
abbrev w1 : EReal := Ideal.ofBits .f32 0x3F800000#32
abbrev w2 : EReal := Ideal.ofBits .f32 0x40000000#32
abbrev w4 : EReal := Ideal.ofBits .f32 0x40800000#32
abbrev w8 : EReal := Ideal.ofBits .f32 0x41000000#32
abbrev w9 : EReal := Ideal.ofBits .f32 0x41100000#32

theorem w0_eq : w0 = 0 := Ideal.ofBits_zero_f32

/-- Centre `c` of the eight positive ones, and node `c` of the four extra ones, among a class's twelve. -/
def cen (c : Fin 8) : Fin 12 := ⟨c.val, by omega⟩
def nod (c : Fin 4) : Fin 12 := ⟨8 + c.val, by omega⟩

/-- Left-nested maximum of eight values. -/
def max8 (g : Fin 8 → EReal) : EReal :=
  max (max (max (max (max (max (max (g 0) (g 1)) (g 2)) (g 3)) (g 4)) (g 5)) (g 6)) (g 7)

section
variable (X : SX.Idx → EReal) (M : SM.Idx → EReal) (R : SR.Idx → EReal)

/-- |X b|². -/
def rowSq (b : Fin 16384) : EReal := ∑ k : Fin 1024, X (ix2 b k) * X (ix2 b k)
/-- |M o c|². -/
def ctrSq (o : Fin 64) (c : Fin 12) : EReal := ∑ k : Fin 1024, M (ix3 o c k) * M (ix3 o c k)
/-- ⟨X b, M o c⟩. -/
def cross (b : Fin 16384) (o : Fin 64) (c : Fin 12) : EReal := ∑ k : Fin 1024, X (ix2 b k) * M (ix3 o c k)
/-- σ = log (1 + exp r). -/
def width (o : Fin 64) (c : Fin 12) : EReal := Ideal.log1p (Ideal.exp (R (ix2 o c)))
/-- 1 / (2·σ·σ). -/
def invTwoVar (o : Fin 64) (c : Fin 12) : EReal := Ideal.div w1 (w2 * width R o c * width R o c)
/-- The Gaussian activation of row `b` at centre `(o, c)`. -/
def act (b : Fin 16384) (o : Fin 64) (c : Fin 12) : EReal :=
  Ideal.exp (-((rowSq X b + ctrSq M o c) - w2 * cross X M b o c) * invTwoVar R o c)
/-- The layer's entry `(b, o)`. -/
def entry (b : Fin 16384) (o : Fin 64) : EReal :=
  Ideal.div (max8 (fun c => act X M R b o (cen c)) * w9 - ∑ c : Fin 8, act X M R b o (cen c)) w8
    - Ideal.div (∑ c : Fin 4, act X M R b o (nod c)) w4
/-- The layer, as an array. -/
def layer : SO.Idx → EReal := fun i => entry X M R ⟨(i 0).val, idx2_lt0 i⟩ ⟨(i 1).val, idx2_lt1 i⟩

theorem layer_apply (b : Fin 16384) (o : Fin 64) : layer X M R (ix2 b o) = entry X M R b o := rfl
end

/-! ## The maximum folded from -∞, and the two sums written out -/

theorem fold_max_bot_fin8 (g : Fin 8 → EReal) :
    (Finset.univ : Finset (Fin 8)).fold max (Ideal.ofBits .f32 0xFF800000#32) g = max8 g := by
  have hb : Ideal.ofBits .f32 0xFF800000#32 = (⊥ : EReal) := by simp [Ideal.ofBits, Ideal.ieee]
  rw [hb]
  simp only [Fin.univ_succ, Finset.fold_cons, Finset.fold_map, Finset.univ_unique, Finset.fold_singleton]
  show max (g 0) (max (g 1) (max (g 2) (max (g 3) (max (g 4) (max (g 5) (max (g 6) (max (g 7) ⊥))))))) = _
  rw [max_bot_right]
  unfold max8
  ac_rfl

/-! ## The width parameter: the stable form is the plain form on a finite argument -/

theorem real_softplus (r : ℝ) : max 0 r + Real.log (1 + Real.exp (-|r|)) = Real.log (1 + Real.exp r) := by
  rcases le_total 0 r with h | h
  · rw [max_eq_right h, abs_of_nonneg h]
    have h1 : (0 : ℝ) < 1 + Real.exp (-r) := by positivity
    have e : 1 + Real.exp r = Real.exp r * (1 + Real.exp (-r)) := by
      rw [mul_add, mul_one, ← Real.exp_add, add_neg_cancel, Real.exp_zero]; ring
    rw [e, Real.log_mul (Real.exp_pos r).ne' h1.ne', Real.log_exp]
  · rw [max_eq_left h, abs_of_nonpos h, neg_neg, zero_add]

theorem coe_max (a b : ℝ) : ((max a b : ℝ) : EReal) = max (a : EReal) (b : EReal) :=
  EReal.coe_strictMono.monotone.map_max

theorem log1p_exp_coe (x : ℝ) : Ideal.log1p (Ideal.exp (x : EReal)) = ((Real.log (1 + Real.exp x) : ℝ) : EReal) := by
  show Ideal.log (1 + ((Real.exp x : ℝ) : EReal)) = _
  have e : (1 : EReal) + ((Real.exp x : ℝ) : EReal) = ((1 + Real.exp x : ℝ) : EReal) := by
    rw [EReal.coe_add, EReal.coe_one]
  rw [e]
  show (if (1 + Real.exp x) ≤ 0 then (⊥ : EReal) else ((Real.log (1 + Real.exp x) : ℝ) : EReal)) = _
  have hp : ¬ (1 + Real.exp x ≤ 0) := by have := Real.exp_pos x; linarith
  rw [if_neg hp]

/-- max(0, r) + log(1 + exp(-|0 - r|)) = log(1 + exp r) for a real `r`, on the extended reals. -/
theorem stable_width (r : ℝ) :
    max w0 (r : EReal) + Ideal.log1p (Ideal.exp (-(max (w0 - (r : EReal)) (-(w0 - (r : EReal))))))
      = Ideal.log1p (Ideal.exp (r : EReal)) := by
  have h0 : w0 = ((0 : ℝ) : EReal) := by rw [EReal.coe_zero]; exact Ideal.ofBits_zero_f32
  rw [h0]
  have e1 : ((0 : ℝ) : EReal) - (r : EReal) = ((-r : ℝ) : EReal) := by
    rw [← EReal.coe_sub, zero_sub]
  rw [e1]
  have e2 : -(((-r : ℝ)) : EReal) = ((r : ℝ) : EReal) := by rw [← EReal.coe_neg, neg_neg]
  rw [e2]
  have e3 : max (((-r : ℝ)) : EReal) ((r : ℝ) : EReal) = ((|r| : ℝ) : EReal) := by
    rw [← coe_max, max_comm]; rfl
  rw [e3, ← EReal.coe_neg, log1p_exp_coe, log1p_exp_coe, ← coe_max, ← EReal.coe_add, real_softplus]

end Cert.RadialLayer

end
-- ==== Proof.Payload.lean ====
/-
  The body's three computed blocks, read at an index, on the extended reals.

  For a block `x` of 2048 rows, a `[1024, W]` matrix `a` whose column `j` is one centre's mean row, a row `s` of the centres'
  squared norms and a row `g` of their inverse doubled variances:
    the squared norm column holds, at row `p`, the sum over `k` of x(p,k)·x(p,k);
    the centre block holds, at (p, j), exp ((0 - ((|x p|² + s j) - 2·∑ k, x(p,k)·a(k,j))) · g j);
    the node block holds, at (p, j), 0 - ((|x p|² + s j) - 2·∑ k, x(p,k)·a(k,j))   (its exponential is taken later).
  A change of float format is the identity here, and a matrix-unit product into the zero accumulator is the plain sum.
-/
import proofs.«159334_j85272280695304_2_alg».proof.Proof.Gen.KernelIdeal.Skeleton
import proofs.«159334_j85272280695304_2_alg».proof.Proof.LibColumns
import proofs.«159334_j85272280695304_2_alg».proof.Proof.LibPlainDot
import proofs.«159334_j85272280695304_2_alg».proof.Proof.Spec
import Idealize.ShloMosaic.Lib.ValueLayout
import Idealize.ShloMosaic.Lib.Pipeline.Value
import Idealize.ShloMosaic.PureOps.Ideal.Laws

noncomputable section

namespace Cert.RadialLayer.Body

open Idealize.ShloMosaic Idealize.ShloMosaic.ValueIdx Cert.KernelIdeal Cert.KernelIdeal.Gen Cert.RadialLayer

/-- The row's squared norm, kept as a column. -/
theorem sqcol_apply (v0 : Vec Ideal S2048x1024 .f32) (p : Fin 2048) (u : Fin 1) :
    k0_pay3 v0 (ix2 p u) = ∑ k : Fin 1024, v0 (ix2 p k) * v0 (ix2 p k) := by
  unfold k0_pay3
  refine (Cert.Columns.shapeCast_a_a1_apply _ _ p u).trans ?_
  refine (Ideal.multiReduction_add_single (mulf v0 v0) _ reduces_S2048x1024_S2048 _ _ (ix1 p)).trans ?_
  refine Finset.sum_congr rfl fun k _ => ?_
  have e : reduces_S2048x1024_S2048.lift (ix1 p) k = ix2 p k :=
    funext fun a => Fin.ext (by match a with | ⟨0, _⟩ => rfl | ⟨1, _⟩ => rfl)
  rw [e]; rfl

/-- The product of the block with the `[1024, 512]` matrix, into the zero accumulator. -/
theorem prodC_apply (v0 : Vec Ideal S2048x1024 .f32) (v2 : Vec Ideal S1024x512 .bf16) (p : Fin 2048) (j : Fin 512) :
    matmul dot_S2048x1024_S1024x512_S2048x512_1_0_0_1_n_n none (k0_pay2 v0)
        (shapeCast S1024x512 v2 shapeCasts_S1024x512_S1024x512 : FVec Ideal S1024x512 .bf16)
        (constant S2048x512 .f32 0x00000000#32) (ix2 p j)
      = ∑ k : Fin 1024, v0 (ix2 p k) * v2 (ix2 k j) := by
  rw [shapeCast_self]
  exact congrFun (Cert.LibPlainDot.matmul_zero_plain (M := 2048) (K := 1024) (N := 512) none (k0_pay2 v0) v2) (ix2 p j)

/-- The product of the block with the `[1024, 256]` matrix, into the zero accumulator. -/
theorem prodN_apply (v0 : Vec Ideal S2048x1024 .f32) (v4 : Vec Ideal S1024x256 .bf16) (p : Fin 2048) (j : Fin 256) :
    matmul dot_S2048x1024_S1024x256_S2048x256_1_0_0_1_n_n none (k0_pay2 v0)
        (shapeCast S1024x256 v4 shapeCasts_S1024x256_S1024x256 : FVec Ideal S1024x256 .bf16)
        (constant S2048x256 .f32 0x00000000#32) (ix2 p j)
      = ∑ k : Fin 1024, v0 (ix2 p k) * v4 (ix2 k j) := by
  rw [shapeCast_self]
  exact congrFun (Cert.LibPlainDot.matmul_zero_plain (M := 2048) (K := 1024) (N := 256) none (k0_pay2 v0) v4) (ix2 p j)

/-- The centre block at `(p, j)`. -/
theorem centres_apply (v0 : Vec Ideal S2048x1024 .f32) (v2 : Vec Ideal S1024x512 .bf16) (v11 v13 : Vec Ideal S1x512 .f32)
    (p : Fin 2048) (j : Fin 512) :
    k0_pay5 v0 v2 v11 v13 (ix2 p j)
      = Ideal.exp ((w0 - (((∑ k : Fin 1024, v0 (ix2 p k) * v0 (ix2 p k)) + v11 (ix2 (0 : Fin 1) j))
          - w2 * ∑ k : Fin 1024, v0 (ix2 p k) * v2 (ix2 k j))) * v13 (ix2 (0 : Fin 1) j)) := by
  unfold k0_pay5
  show Ideal.exp ((w0 - ((broadcastTo S2048x512 (k0_pay3 v0) broadcasts_S2048x1_S2048x512 (ix2 p j)
      + broadcastTo S2048x512 (shapeCast S1x512 v11 shapeCasts_S1x512_S1x512) broadcasts_S1x512_S2048x512 (ix2 p j))
      - w2 * matmul dot_S2048x1024_S1024x512_S2048x512_1_0_0_1_n_n none (k0_pay2 v0) (shapeCast S1024x512 v2 shapeCasts_S1024x512_S1024x512)
        (constant S2048x512 .f32 0x00000000#32) (ix2 p j)))
      * broadcastTo S2048x512 (shapeCast S1x512 v13 shapeCasts_S1x512_S1x512) broadcasts_S1x512_S2048x512 (ix2 p j)) = _
  rw [prodC_apply, Cert.Columns.broadcastTo_a1_ab_apply, sqcol_apply, broadcastTo_1b_ab_apply, broadcastTo_1b_ab_apply,
    shapeCast_self, shapeCast_self]

/-- The node block at `(p, j)`: the negated distance, before its scale and exponential. -/
theorem nodes_apply (v0 : Vec Ideal S2048x1024 .f32) (v4 : Vec Ideal S1024x256 .bf16) (v15 : Vec Ideal S1x256 .f32)
    (p : Fin 2048) (j : Fin 256) :
    k0_pay6 v0 v4 v15 (ix2 p j)
      = w0 - (((∑ k : Fin 1024, v0 (ix2 p k) * v0 (ix2 p k)) + v15 (ix2 (0 : Fin 1) j))
          - w2 * ∑ k : Fin 1024, v0 (ix2 p k) * v4 (ix2 k j)) := by
  unfold k0_pay6
  show w0 - ((broadcastTo S2048x256 (k0_pay3 v0) broadcasts_S2048x1_S2048x256 (ix2 p j)
      + broadcastTo S2048x256 (shapeCast S1x256 v15 shapeCasts_S1x256_S1x256) broadcasts_S1x256_S2048x256 (ix2 p j))
      - w2 * matmul dot_S2048x1024_S1024x256_S2048x256_1_0_0_1_n_n none (k0_pay2 v0) (shapeCast S1024x256 v4 shapeCasts_S1024x256_S1024x256)
        (constant S2048x256 .f32 0x00000000#32) (ix2 p j)) = _
  rw [prodN_apply, Cert.Columns.broadcastTo_a1_ab_apply, sqcol_apply, broadcastTo_1b_ab_apply, shapeCast_self]

end Cert.RadialLayer.Body

end
-- ==== Proof.Combine.lean ====
/-
  The body's last step, read at an index, and the block's entry from its loaded blocks.

  The body cuts the centre block into eight bands of 64 columns and the node block into four: band `c`, column `q` is
  column 64·c + q. Its result at (p, q) is
    ( max over the eight bands · 9 - their sum ) / 8  -  ( sum over the four node bands of exp (value · scale) ) / 4,
  the maximum and the sums taken band after band from the first. When the loaded blocks hold, column by column, the
  centres' mean rows, squared norms and inverse doubled variances, and the block of rows holds rows of `X`, this is the
  layer's entry: 0 - d is -d, and a sum taken term after term is the sum.
-/
import proofs.«159334_j85272280695304_2_alg».proof.Proof.Payload

noncomputable section

namespace Cert.RadialLayer.Body

open Idealize.ShloMosaic Idealize.ShloMosaic.ValueIdx Cert.KernelIdeal Cert.KernelIdeal.Gen Cert.RadialLayer

/-- Column `q` of band `c`. -/
def col8 (c : Fin 8) (q : Fin 64) : Fin 512 := ⟨64 * c.val + q.val, by omega⟩
def col4 (c : Fin 4) (q : Fin 64) : Fin 256 := ⟨64 * c.val + q.val, by omega⟩

theorem combine_apply (v18 : FVec Ideal S1x256 .f32) (v35 : FVec Ideal S2048x512 .f32) (v37 : FVec Ideal S2048x256 .f32)
    (p : Fin 2048) (q : Fin 64) :
    k0_pay1 v18 v35 v37 (ix2 p q)
      = Ideal.div (max8 (fun c => v35 (ix2 p (col8 c q))) * w9 - ∑ c : Fin 8, v35 (ix2 p (col8 c q))) w8
        - Ideal.div (∑ c : Fin 4, Ideal.exp (v37 (ix2 p (col4 c q)) * v18 (ix2 (0 : Fin 1) (col4 c q)))) w4 := by
  have hn (c : Fin 4) : (exp (mulf v37 (broadcastTo S2048x256 v18 broadcasts_S1x256_S2048x256))) (ix2 p (col4 c q))
      = Ideal.exp (v37 (ix2 p (col4 c q)) * v18 (ix2 (0 : Fin 1) (col4 c q))) := by
    show Ideal.exp (v37 (ix2 p (col4 c q)) * broadcastTo S2048x256 v18 broadcasts_S1x256_S2048x256 (ix2 p (col4 c q))) = _
    rw [broadcastTo_1b_ab_apply]
  unfold k0_pay1
  show Ideal.div ((max (max (max (max (max (max (max (extractStridedSlice S2048x64 ![0, 0] v35 slices_S2048x512_o0_0_S2048x64 (ix2 p q)) (extractStridedSlice S2048x64 ![0, 64] v35 slices_S2048x512_o0_64_S2048x64 (ix2 p q))) (extractStridedSlice S2048x64 ![0, 128] v35 slices_S2048x512_o0_128_S2048x64 (ix2 p q))) (extractStridedSlice S2048x64 ![0, 192] v35 slices_S2048x512_o0_192_S2048x64 (ix2 p q))) (extractStridedSlice S2048x64 ![0, 256] v35 slices_S2048x512_o0_256_S2048x64 (ix2 p q))) (extractStridedSlice S2048x64 ![0, 320] v35 slices_S2048x512_o0_320_S2048x64 (ix2 p q))) (extractStridedSlice S2048x64 ![0, 384] v35 slices_S2048x512_o0_384_S2048x64 (ix2 p q))) (extractStridedSlice S2048x64 ![0, 448] v35 slices_S2048x512_o0_448_S2048x64 (ix2 p q))) * w9 - ((((((((extractStridedSlice S2048x64 ![0, 0] v35 slices_S2048x512_o0_0_S2048x64 (ix2 p q)) + (extractStridedSlice S2048x64 ![0, 64] v35 slices_S2048x512_o0_64_S2048x64 (ix2 p q))) + (extractStridedSlice S2048x64 ![0, 128] v35 slices_S2048x512_o0_128_S2048x64 (ix2 p q))) + (extractStridedSlice S2048x64 ![0, 192] v35 slices_S2048x512_o0_192_S2048x64 (ix2 p q))) + (extractStridedSlice S2048x64 ![0, 256] v35 slices_S2048x512_o0_256_S2048x64 (ix2 p q))) + (extractStridedSlice S2048x64 ![0, 320] v35 slices_S2048x512_o0_320_S2048x64 (ix2 p q))) + (extractStridedSlice S2048x64 ![0, 384] v35 slices_S2048x512_o0_384_S2048x64 (ix2 p q))) + (extractStridedSlice S2048x64 ![0, 448] v35 slices_S2048x512_o0_448_S2048x64 (ix2 p q)))) w8
      - Ideal.div ((((extractStridedSlice S2048x64 ![0, 0] (exp (mulf v37 (broadcastTo S2048x256 v18 broadcasts_S1x256_S2048x256))) slices_S2048x256_o0_0_S2048x64 (ix2 p q)) + (extractStridedSlice S2048x64 ![0, 64] (exp (mulf v37 (broadcastTo S2048x256 v18 broadcasts_S1x256_S2048x256))) slices_S2048x256_o0_64_S2048x64 (ix2 p q))) + (extractStridedSlice S2048x64 ![0, 128] (exp (mulf v37 (broadcastTo S2048x256 v18 broadcasts_S1x256_S2048x256))) slices_S2048x256_o0_128_S2048x64 (ix2 p q))) + (extractStridedSlice S2048x64 ![0, 192] (exp (mulf v37 (broadcastTo S2048x256 v18 broadcasts_S1x256_S2048x256))) slices_S2048x256_o0_192_S2048x64 (ix2 p q))) w4 = _
  rw [slice2_axis1_apply 0 v35 _ p q (col8 0 q) rfl,
    slice2_axis1_apply 64 v35 _ p q (col8 1 q) rfl,
    slice2_axis1_apply 128 v35 _ p q (col8 2 q) rfl,
    slice2_axis1_apply 192 v35 _ p q (col8 3 q) rfl,
    slice2_axis1_apply 256 v35 _ p q (col8 4 q) rfl,
    slice2_axis1_apply 320 v35 _ p q (col8 5 q) rfl,
    slice2_axis1_apply 384 v35 _ p q (col8 6 q) rfl,
    slice2_axis1_apply 448 v35 _ p q (col8 7 q) rfl,
    slice2_axis1_apply 0 (exp (mulf v37 (broadcastTo S2048x256 v18 broadcasts_S1x256_S2048x256))) _ p q (col4 0 q) rfl,
    slice2_axis1_apply 64 (exp (mulf v37 (broadcastTo S2048x256 v18 broadcasts_S1x256_S2048x256))) _ p q (col4 1 q) rfl,
    slice2_axis1_apply 128 (exp (mulf v37 (broadcastTo S2048x256 v18 broadcasts_S1x256_S2048x256))) _ p q (col4 2 q) rfl,
    slice2_axis1_apply 192 (exp (mulf v37 (broadcastTo S2048x256 v18 broadcasts_S1x256_S2048x256))) _ p q (col4 3 q) rfl,
    hn 0, hn 1, hn 2, hn 3]
  unfold max8
  rw [Fin.sum_univ_eight, Fin.sum_univ_four]

/-- The block's entry `(p, q)` is the layer's entry `(b, q)` when the loaded blocks hold what the layer reads. -/
theorem block_entry (X : SX.Idx → EReal) (M : SM.Idx → EReal) (R : SR.Idx → EReal) (b : Fin 16384)
    (x0 : Vec Ideal S2048x1024 .f32) (a : Vec Ideal S1024x512 .bf16) (a' : Vec Ideal S1024x256 .bf16)
    (s g : Vec Ideal S1x512 .f32) (s' g' : Vec Ideal S1x256 .f32) (p : Fin 2048) (q : Fin 64)
    (hx : ∀ k : Fin 1024, x0 (ix2 p k) = X (ix2 b k))
    (ha : ∀ (k : Fin 1024) (c : Fin 8), a (ix2 k (col8 c q)) = M (ix3 q (cen c) k))
    (ha' : ∀ (k : Fin 1024) (c : Fin 4), a' (ix2 k (col4 c q)) = M (ix3 q (nod c) k))
    (hs : ∀ c : Fin 8, s (ix2 (0 : Fin 1) (col8 c q)) = ctrSq M q (cen c))
    (hg : ∀ c : Fin 8, g (ix2 (0 : Fin 1) (col8 c q)) = invTwoVar R q (cen c))
    (hs' : ∀ c : Fin 4, s' (ix2 (0 : Fin 1) (col4 c q)) = ctrSq M q (nod c))
    (hg' : ∀ c : Fin 4, g' (ix2 (0 : Fin 1) (col4 c q)) = invTwoVar R q (nod c)) :
    k0_pay1 (k0_pay4 g') (k0_pay5 x0 a s g) (k0_pay6 x0 a' s') (ix2 p q) = entry X M R b q := by
  have hc (c : Fin 8) : k0_pay5 x0 a s g (ix2 p (col8 c q)) = act X M R b q (cen c) := by
    rw [centres_apply, hs, hg]
    unfold act rowSq cross
    simp only [hx, ha]
    rw [w0_eq, zero_sub]
  have hd (c : Fin 4) : Ideal.exp (k0_pay6 x0 a' s' (ix2 p (col4 c q)) * k0_pay4 g' (ix2 (0 : Fin 1) (col4 c q)))
      = act X M R b q (nod c) := by
    have e4 : k0_pay4 g' (ix2 (0 : Fin 1) (col4 c q)) = g' (ix2 (0 : Fin 1) (col4 c q)) := by
      unfold k0_pay4; rw [shapeCast_self]
    rw [e4, nodes_apply, hs', hg']
    unfold act rowSq cross
    simp only [hx, ha']
    rw [w0_eq, zero_sub]
  rw [combine_apply]
  unfold entry
  simp only [hc, hd]

end Cert.RadialLayer.Body

end
-- ==== Proof.Glue.lean ====
/-
  The arrays the host prepares for the kernel, read at an index.

  Before the launch the host re-lays the centres' data so that one column of 64·c + o holds centre `c` of class `o`:
    the two mean matrices hold, at (k, 64·c + o), coordinate `k` of the mean row of centre (o, c) — the first eight centres
    in one matrix, the four extra nodes in the other (cut along the centre axis, transposed, flattened);
    the rows of squared norms and of inverse doubled variances hold, at (0, 64·c + o), the value of centre (o, c).
  The squared norms are the sums over the 1024 coordinates. The width is computed in its stable form, which on a finite
  parameter is log (1 + exp r); so there the inverse doubled variance is the layer's.
-/
import proofs.«159334_j85272280695304_2_alg».proof.Proof.Gen.KernelIdeal.Frame
import proofs.«159334_j85272280695304_2_alg».proof.Proof.Combine
import Idealize.ShloMosaic.Lib.ValueLayout
import Idealize.ShloMosaic.Lib.IdealHost
import Idealize.ShloMosaic.Lib.StableHlo.Run

noncomputable section

namespace Cert.RadialLayer.Glue

open Idealize.ShloMosaic Idealize.ShloMosaic.ValueIdx Idealize.ShloMosaic.TcCoe Idealize.SL.Sem Idealize.ShloMosaic.StableHlo
open Cert.KernelIdeal Cert.KernelIdeal.Gen Cert.RadialLayer Cert.RadialLayer.Body

/-! ## The prepared arrays as terms -/

section terms
variable (M : S64x12x1024.Idx → EReal) (R N : S64x12.Idx → EReal)

def means8 : S1024x512.Idx → EReal :=
  shapeCast S1024x512 (transpose S1024x8x64 [2, 1, 0] (extractStridedSlice S64x8x1024 ![0, 0, 0] M slices_S64x12x1024_S64x8x1024_0_0_0)
    transposes_S64x8x1024_S1024x8x64_2_1_0) shapeCasts_S1024x8x64_S1024x512
def means4 : S1024x256.Idx → EReal :=
  shapeCast S1024x256 (transpose S1024x4x64 [2, 1, 0] (extractStridedSlice S64x4x1024 ![0, 8, 0] M slices_S64x12x1024_S64x4x1024_0_8_0)
    transposes_S64x4x1024_S1024x4x64_2_1_0) shapeCasts_S1024x4x64_S1024x256
def sqNorms : S64x12.Idx → EReal :=
  Host.reduceAdd (F := Ideal) (φ := .f32) (mulf (F := Ideal) (φ := .f32) M M) (constant (F := Ideal) S_ .f32 0x00000000#32) reducesTo_S64x12x1024_S64x12_d2 h_S_
def row8 : S1x512.Idx → EReal :=
  shapeCast S1x512 (transpose S8x64 [1, 0] (extractStridedSlice S64x8 ![0, 0] N slices_S64x12_S64x8_0_0) transposes_S64x8_S8x64_1_0)
    shapeCasts_S8x64_S1x512
def row4 : S1x256.Idx → EReal :=
  shapeCast S1x256 (transpose S4x64 [1, 0] (extractStridedSlice S64x4 ![0, 8] N slices_S64x12_S64x4_0_8) transposes_S64x4_S4x64_1_0)
    shapeCasts_S4x64_S1x256
def zeros : S64x12.Idx → EReal := broadcastInDim S64x12 ![] bcast_S_S64x12 (constant (F := Ideal) S_ .f32 0x00000000#32)
def widthK : S64x12.Idx → EReal :=
  select (cmpf (F := Ideal) (φ := .f32) .une (subf (F := Ideal) (φ := .f32) zeros R) (subf (F := Ideal) (φ := .f32) zeros R))
    (addf (F := Ideal) (φ := .f32) zeros R)
    (addf (F := Ideal) (φ := .f32) (maximumf (F := Ideal) (φ := .f32) zeros R)
      (Host.log1p (F := Ideal) (φ := .f32) (Host.exp (F := Ideal) (φ := .f32) (Host.negf (F := Ideal) (φ := .f32) (Host.absf (F := Ideal) (φ := .f32) (subf (F := Ideal) (φ := .f32) zeros R))))))
def scaleK : S64x12.Idx → EReal :=
  Host.divf (F := Ideal) (φ := .f32) (broadcastInDim S64x12 ![] bcast_S_S64x12 (constant (F := Ideal) S_ .f32 0x3F800000#32))
    (mulf (F := Ideal) (φ := .f32) (mulf (F := Ideal) (φ := .f32) (broadcastInDim S64x12 ![] bcast_S_S64x12 (constant (F := Ideal) S_ .f32 0x40000000#32)) (widthK R)) (widthK R))

/-! ## Read at an index -/

theorem means8_apply (k : Fin 1024) (c : Fin 8) (o : Fin 64) : means8 M (ix2 k (col8 c o)) = M (ix3 o (cen c) k) := by
  unfold means8
  refine (shapeCast_apply _ _ (ix2 k (col8 c o)) (ix3 k c o) ?_).trans ?_
  · rw [Shape.rowMajor_val_three, Shape.rowMajor_val_two]
    show (k.val * 8 + c.val) * 64 + o.val = k.val * 512 + (64 * c.val + o.val)
    omega
  refine (transpose_apply _ _ _ (ix3 k c o) (ix3 o c k) (fun a => match a with | ⟨0, _⟩ => rfl | ⟨1, _⟩ => rfl | ⟨2, _⟩ => rfl)).trans ?_
  exact slice3_axis1_apply 0 M _ o c k (cen c) (by show c.val = 0 + c.val; omega)

theorem means4_apply (k : Fin 1024) (c : Fin 4) (o : Fin 64) : means4 M (ix2 k (col4 c o)) = M (ix3 o (nod c) k) := by
  unfold means4
  refine (shapeCast_apply _ _ (ix2 k (col4 c o)) (ix3 k c o) ?_).trans ?_
  · rw [Shape.rowMajor_val_three, Shape.rowMajor_val_two]
    show (k.val * 4 + c.val) * 64 + o.val = k.val * 256 + (64 * c.val + o.val)
    omega
  refine (transpose_apply _ _ _ (ix3 k c o) (ix3 o c k) (fun a => match a with | ⟨0, _⟩ => rfl | ⟨1, _⟩ => rfl | ⟨2, _⟩ => rfl)).trans ?_
  exact slice3_axis1_apply 8 M _ o c k (nod c) rfl

theorem row8_apply (c : Fin 8) (o : Fin 64) : row8 N (ix2 (0 : Fin 1) (col8 c o)) = N (ix2 o (cen c)) := by
  unfold row8
  refine (shapeCast_apply _ _ (ix2 (0 : Fin 1) (col8 c o)) (ix2 c o) ?_).trans ?_
  · rw [Shape.rowMajor_val_two, Shape.rowMajor_val_two]
    show c.val * 64 + o.val = 0 * 512 + (64 * c.val + o.val)
    omega
  refine (transpose_ix2_apply _ _ c o).trans ?_
  exact slice2_axis1_apply 0 N _ o c (cen c) (by show c.val = 0 + c.val; omega)

theorem row4_apply (c : Fin 4) (o : Fin 64) : row4 N (ix2 (0 : Fin 1) (col4 c o)) = N (ix2 o (nod c)) := by
  unfold row4
  refine (shapeCast_apply _ _ (ix2 (0 : Fin 1) (col4 c o)) (ix2 c o) ?_).trans ?_
  · rw [Shape.rowMajor_val_two, Shape.rowMajor_val_two]
    show c.val * 64 + o.val = 0 * 256 + (64 * c.val + o.val)
    omega
  refine (transpose_ix2_apply _ _ c o).trans ?_
  exact slice2_axis1_apply 8 N _ o c (nod c) rfl

theorem sqNorms_apply (o : Fin 64) (c : Fin 12) : sqNorms M (ix2 o c) = ctrSq M o c := by
  unfold sqNorms
  rw [hostReduceAdd_apply, Ideal.hostReduceAdd_single reducesTo_S64x12x1024_S64x12_d2 (by decide)]
  show Ideal.ofBits .f32 0x00000000#32 + _ = _
  rw [Ideal.ofBits_zero_f32, zero_add]
  refine Finset.sum_congr rfl fun k _ => ?_
  have e : (by decide : S64x12x1024.Reduces [2] S64x12).lift (ix2 o c) k = ix3 o c k :=
    funext fun a => Fin.ext (by match a with | ⟨0, _⟩ => rfl | ⟨1, _⟩ => rfl | ⟨2, _⟩ => rfl)
  rw [e]; rfl

theorem zeros_apply (i : S64x12.Idx) : zeros i = w0 := by
  unfold zeros; rw [broadcastInDim_scalar_apply]; rfl

/-- The stable form of the width is the plain one on a finite parameter. -/
theorem widthK_apply (o : Fin 64) (c : Fin 12) (r : ℝ) (hr : R (ix2 o c) = (r : EReal)) : widthK R (ix2 o c) = width R o c := by
  have e : widthK R (ix2 o c)
      = Scalar.select (Ideal.cmp .une (zeros (ix2 o c) - R (ix2 o c)) (zeros (ix2 o c) - R (ix2 o c))) (zeros (ix2 o c) + R (ix2 o c))
          (max (zeros (ix2 o c)) (R (ix2 o c))
            + Ideal.log1p (Ideal.exp (-(max (zeros (ix2 o c) - R (ix2 o c)) (-(zeros (ix2 o c) - R (ix2 o c))))))) := rfl
  have hc : Ideal.cmp .une (zeros (ix2 o c) - R (ix2 o c)) (zeros (ix2 o c) - R (ix2 o c)) = 0#1 := by
    simp [Ideal.cmp]
  rw [e, hc, zeros_apply, hr]
  show max w0 (r : EReal) + _ = _
  unfold width
  rw [hr]
  exact stable_width r

theorem scaleK_apply (o : Fin 64) (c : Fin 12) (r : ℝ) (hr : R (ix2 o c) = (r : EReal)) : scaleK R (ix2 o c) = invTwoVar R o c := by
  have e : scaleK R (ix2 o c)
      = Ideal.div ((broadcastInDim S64x12 ![] bcast_S_S64x12 (constant (F := Ideal) S_ .f32 0x3F800000#32)) (ix2 o c))
          ((broadcastInDim S64x12 ![] bcast_S_S64x12 (constant (F := Ideal) S_ .f32 0x40000000#32)) (ix2 o c) * widthK R (ix2 o c) * widthK R (ix2 o c)) := rfl
  rw [e, widthK_apply R o c r hr, broadcastInDim_scalar_apply, broadcastInDim_scalar_apply]
  rfl

end terms

/-! ## What the region finds in each window's array -/

variable (m : (ℓ : Loc nD τ sig) → Buf (Elt Ideal) ℓ)

theorem V_means8 (c : Dev nD) : (V m c main_v6 : S1024x512.Idx → EReal) = means8 (m ((c : Thread nD τ).loc main_arg1)) := by
  dsimp only [Gen.V, Gen.hostOps0]; after_results; rfl

theorem V_means4 (c : Dev nD) : (V m c main_v7 : S1024x256.Idx → EReal) = means4 (m ((c : Thread nD τ).loc main_arg1)) := by
  dsimp only [Gen.V, Gen.hostOps0]; after_results; rfl

theorem V_norms8 (c : Dev nD) : (V m c main_v30 : S1x512.Idx → EReal) = row8 (sqNorms (m ((c : Thread nD τ).loc main_arg1))) := by
  dsimp only [Gen.V, Gen.hostOps0]; after_results; rfl

theorem V_norms4 (c : Dev nD) : (V m c main_v33 : S1x256.Idx → EReal) = row4 (sqNorms (m ((c : Thread nD τ).loc main_arg1))) := by
  dsimp only [Gen.V, Gen.hostOps0]; after_results; rfl

set_option maxHeartbeats 2000000 in
theorem V_scale8 (c : Dev nD) : (V m c main_v36 : S1x512.Idx → EReal) = row8 (scaleK (m ((c : Thread nD τ).loc main_arg2))) := by
  dsimp only [Gen.V, Gen.hostOps0]; after_results; rfl

set_option maxHeartbeats 2000000 in
theorem V_scale4 (c : Dev nD) : (V m c main_v39 : S1x256.Idx → EReal) = row4 (scaleK (m ((c : Thread nD τ).loc main_arg2))) := by
  dsimp only [Gen.V, Gen.hostOps0]; after_results; rfl

end Cert.RadialLayer.Glue

end
-- ==== Proof.Blocks.lean ====
/-
  From the blocks to the array.

  The grid has eight points; point `t` reads rows 2048·t … 2048·t + 2047 of `X` and the whole of each prepared array, and
  writes rows 2048·t … of the result. So what point `t` writes back is block `t` of the layer, the eight blocks cover the
  result's 16384 rows (row `r` lies in block r / 2048), and the result array ends holding the layer.
-/
import proofs.«159334_j85272280695304_2_alg».proof.Proof.Glue
import Idealize.ShloMosaic.Lib.Pipeline.Value

noncomputable section

namespace Cert.RadialLayer.Blocks

open Idealize.ShloMosaic Idealize.ShloMosaic.ValueIdx Idealize.ShloMosaic.TcCoe Idealize.SL.Sem
open Cert.KernelIdeal Cert.KernelIdeal.Gen Cert.RadialLayer Cert.RadialLayer.Body Cert.RadialLayer.Glue
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The index maps over the grid: the row blocks of `X` and of the result follow the point, every other window stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The layer of the launch contents of the three arguments. -/
def L (c : Dev nD) : S16384x64.Idx → EReal :=
  layer (m ((c : Thread nD τ).loc main_arg0)) (m ((c : Thread nD τ).loc main_arg1)) (m ((c : Thread nD τ).loc main_arg2))

/-! ## What each window's block holds at a point -/

section reads
variable (c : Dev nD) (t : Fin cfg0.N)

/-- The block of rows of `X` at point `t` holds rows 2048·t … of `X`. -/
theorem rows_read (p : Fin 2048) (k : Fin 1024) (hb : t.val * 2048 + p.val < 16384) :
    V m c main_arg0 (((cfg0.win 0).blk t).view.emb (ix2 p k))
      = m ((c : Thread nD τ).loc main_arg0) (ix2 (⟨t.val * 2048 + p.val, hb⟩ : Fin 16384) k) := by
  obtain ⟨e00, e01, -⟩ := index_maps t
  rw [V_main_arg0]
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 1024 + 1 * k.val = k.val; omega

theorem means8_read (k : Fin 1024) (c' : Fin 8) (q : Fin 64) :
    V m c main_v6 (((cfg0.win 1).blk t).view.emb (ix2 k (col8 c' q)))
      = m ((c : Thread nD τ).loc main_arg1) (ix3 q (cen c') k) := by
  obtain ⟨-, -, e10, e11, -⟩ := index_maps t
  have he : ((cfg0.win 1).blk t).view.emb (ix2 k (col8 c' q)) = ix2 k (col8 c' q) := by
    funext a; apply Fin.ext
    match a with
    | ⟨0, _⟩ => show win0_1.index t (0 : Fin 2) * 1024 + 1 * k.val = k.val; omega
    | ⟨1, _⟩ => show win0_1.index t (1 : Fin 2) * 512 + 1 * (col8 c' q).val = (col8 c' q).val; omega
  rw [he]
  exact (congrFun (V_means8 m c) (ix2 k (col8 c' q))).trans (means8_apply (m ((c : Thread nD τ).loc main_arg1)) k c' q)

theorem means4_read (k : Fin 1024) (c' : Fin 4) (q : Fin 64) :
    V m c main_v7 (((cfg0.win 2).blk t).view.emb (ix2 k (col4 c' q)))
      = m ((c : Thread nD τ).loc main_arg1) (ix3 q (nod c') k) := by
  obtain ⟨-, -, -, -, e20, e21, -⟩ := index_maps t
  have he : ((cfg0.win 2).blk t).view.emb (ix2 k (col4 c' q)) = ix2 k (col4 c' q) := by
    funext a; apply Fin.ext
    match a with
    | ⟨0, _⟩ => show win0_2.index t (0 : Fin 2) * 1024 + 1 * k.val = k.val; omega
    | ⟨1, _⟩ => show win0_2.index t (1 : Fin 2) * 256 + 1 * (col4 c' q).val = (col4 c' q).val; omega
  rw [he]
  exact (congrFun (V_means4 m c) (ix2 k (col4 c' q))).trans (means4_apply (m ((c : Thread nD τ).loc main_arg1)) k c' q)

theorem norms8_read (c' : Fin 8) (q : Fin 64) :
    V m c main_v30 (((cfg0.win 3).blk t).view.emb (ix2 (0 : Fin 1) (col8 c' q)))
      = ctrSq (m ((c : Thread nD τ).loc main_arg1)) q (cen c') := by
  obtain ⟨-, -, -, -, -, -, e30, e31, -⟩ := index_maps t
  have he : ((cfg0.win 3).blk t).view.emb (ix2 (0 : Fin 1) (col8 c' q)) = ix2 (0 : Fin 1) (col8 c' q) := by
    funext a; apply Fin.ext
    match a with
    | ⟨0, _⟩ => show win0_3.index t (0 : Fin 2) * 1 + 1 * 0 = 0; omega
    | ⟨1, _⟩ => show win0_3.index t (1 : Fin 2) * 512 + 1 * (col8 c' q).val = (col8 c' q).val; omega
  rw [he]
  exact ((congrFun (V_norms8 m c) (ix2 (0 : Fin 1) (col8 c' q))).trans
    (row8_apply (sqNorms (m ((c : Thread nD τ).loc main_arg1))) c' q)).trans
    (sqNorms_apply (m ((c : Thread nD τ).loc main_arg1)) q (cen c'))

theorem norms4_read (c' : Fin 4) (q : Fin 64) :
    V m c main_v33 (((cfg0.win 5).blk t).view.emb (ix2 (0 : Fin 1) (col4 c' q)))
      = ctrSq (m ((c : Thread nD τ).loc main_arg1)) q (nod c') := by
  obtain ⟨-, -, -, -, -, -, -, -, -, -, e50, e51, -⟩ := index_maps t
  have he : ((cfg0.win 5).blk t).view.emb (ix2 (0 : Fin 1) (col4 c' q)) = ix2 (0 : Fin 1) (col4 c' q) := by
    funext a; apply Fin.ext
    match a with
    | ⟨0, _⟩ => show win0_5.index t (0 : Fin 2) * 1 + 1 * 0 = 0; omega
    | ⟨1, _⟩ => show win0_5.index t (1 : Fin 2) * 256 + 1 * (col4 c' q).val = (col4 c' q).val; omega
  rw [he]
  exact ((congrFun (V_norms4 m c) (ix2 (0 : Fin 1) (col4 c' q))).trans
    (row4_apply (sqNorms (m ((c : Thread nD τ).loc main_arg1))) c' q)).trans
    (sqNorms_apply (m ((c : Thread nD τ).loc main_arg1)) q (nod c'))

theorem scale8_read (c' : Fin 8) (q : Fin 64) (r : ℝ)
    (hr : m ((c : Thread nD τ).loc main_arg2) (ix2 q (cen c')) = (r : EReal)) :
    V m c main_v36 (((cfg0.win 4).blk t).view.emb (ix2 (0 : Fin 1) (col8 c' q)))
      = invTwoVar (m ((c : Thread nD τ).loc main_arg2)) q (cen c') := by
  obtain ⟨-, -, -, -, -, -, -, -, e40, e41, -⟩ := index_maps t
  have he : ((cfg0.win 4).blk t).view.emb (ix2 (0 : Fin 1) (col8 c' q)) = ix2 (0 : Fin 1) (col8 c' q) := by
    funext a; apply Fin.ext
    match a with
    | ⟨0, _⟩ => show win0_4.index t (0 : Fin 2) * 1 + 1 * 0 = 0; omega
    | ⟨1, _⟩ => show win0_4.index t (1 : Fin 2) * 512 + 1 * (col8 c' q).val = (col8 c' q).val; omega
  rw [he]
  exact ((congrFun (V_scale8 m c) (ix2 (0 : Fin 1) (col8 c' q))).trans
    (row8_apply (scaleK (m ((c : Thread nD τ).loc main_arg2))) c' q)).trans
    (scaleK_apply (m ((c : Thread nD τ).loc main_arg2)) q (cen c') r hr)

theorem scale4_read (c' : Fin 4) (q : Fin 64) (r : ℝ)
    (hr : m ((c : Thread nD τ).loc main_arg2) (ix2 q (nod c')) = (r : EReal)) :
    V m c main_v39 (((cfg0.win 6).blk t).view.emb (ix2 (0 : Fin 1) (col4 c' q)))
      = invTwoVar (m ((c : Thread nD τ).loc main_arg2)) q (nod c') := by
  obtain ⟨-, -, -, -, -, -, -, -, -, -, -, -, e60, e61, -⟩ := index_maps t
  have he : ((cfg0.win 6).blk t).view.emb (ix2 (0 : Fin 1) (col4 c' q)) = ix2 (0 : Fin 1) (col4 c' q) := by
    funext a; apply Fin.ext
    match a with
    | ⟨0, _⟩ => show win0_6.index t (0 : Fin 2) * 1 + 1 * 0 = 0; omega
    | ⟨1, _⟩ => show win0_6.index t (1 : Fin 2) * 256 + 1 * (col4 c' q).val = (col4 c' q).val; omega
  rw [he]
  exact ((congrFun (V_scale4 m c) (ix2 (0 : Fin 1) (col4 c' q))).trans
    (row4_apply (scaleK (m ((c : Thread nD τ).loc main_arg2))) c' q)).trans
    (scaleK_apply (m ((c : Thread nD τ).loc main_arg2)) q (nod c') r hr)

/-- Where the result's block at point `t` sits: row `p` of the block is row 2048·t + p. -/
theorem out_emb (p : Fin 2048) (q : Fin 64) (hb : t.val * 2048 + p.val < 16384) :
    ((cfg0.win 7).blk t).view.emb (ix2 p q) = ix2 (⟨t.val * 2048 + p.val, hb⟩ : Fin 16384) q := by
  obtain ⟨-, -, -, -, -, -, -, -, -, -, -, -, -, -, e70, e71⟩ := index_maps t
  funext a; apply Fin.ext
  match a with
  | ⟨0, _⟩ => show win0_7.index t (0 : Fin 2) * 2048 + 1 * p.val = t.val * 2048 + p.val; omega
  | ⟨1, _⟩ => show win0_7.index t (1 : Fin 2) * 64 + 1 * q.val = q.val; omega

/-! The same facts, stated of the blocks as the frame names them. -/

theorem rows_blk (p : Fin 2048) (k : Fin 1024) (hb : t.val * 2048 + p.val < 16384) :
    iblk m c 0 t (ix2 p k) = (m ((c : Thread nD τ).loc main_arg0)) (ix2 (⟨t.val * 2048 + p.val, hb⟩ : Fin 16384) k) := rows_read m c t p k hb

theorem means8_blk (k : Fin 1024) (c' : Fin 8) (q : Fin 64) :
    iblk m c 1 t (ix2 k (col8 c' q)) = (m ((c : Thread nD τ).loc main_arg1)) (ix3 q (cen c') k) := means8_read m c t k c' q

theorem means4_blk (k : Fin 1024) (c' : Fin 4) (q : Fin 64) :
    iblk m c 2 t (ix2 k (col4 c' q)) = (m ((c : Thread nD τ).loc main_arg1)) (ix3 q (nod c') k) := means4_read m c t k c' q

theorem norms8_blk (c' : Fin 8) (q : Fin 64) :
    iblk m c 3 t (ix2 (0 : Fin 1) (col8 c' q)) = ctrSq (m ((c : Thread nD τ).loc main_arg1)) q (cen c') := norms8_read m c t c' q

theorem scale8_blk (c' : Fin 8) (q : Fin 64) (r : ℝ) (hr : (m ((c : Thread nD τ).loc main_arg2)) (ix2 q (cen c')) = (r : EReal)) :
    iblk m c 4 t (ix2 (0 : Fin 1) (col8 c' q)) = invTwoVar (m ((c : Thread nD τ).loc main_arg2)) q (cen c') := scale8_read m c t c' q r hr

theorem norms4_blk (c' : Fin 4) (q : Fin 64) :
    iblk m c 5 t (ix2 (0 : Fin 1) (col4 c' q)) = ctrSq (m ((c : Thread nD τ).loc main_arg1)) q (nod c') := norms4_read m c t c' q

theorem scale4_blk (c' : Fin 4) (q : Fin 64) (r : ℝ) (hr : (m ((c : Thread nD τ).loc main_arg2)) (ix2 q (nod c')) = (r : EReal)) :
    iblk m c 6 t (ix2 (0 : Fin 1) (col4 c' q)) = invTwoVar (m ((c : Thread nD τ).loc main_arg2)) q (nod c') := scale4_read m c t c' q r hr

end reads

/-- What the body leaves in the result's block at point `t`, at `(p, q)`, is the layer's entry `(2048·t + p, q)`. -/
theorem body_out (hfin : ∀ (c : Dev nD) (i : S64x12.Idx), ∃ r : ℝ, m ((c : Thread nD τ).loc main_arg2) i = (r : EReal))
    (c : Dev nD) (t : Fin cfg0.N) (p : Fin 2048) (q : Fin 64) (hb : t.val * 2048 + p.val < 16384) :
    out0_7 (iblk m c 0 t) (iblk m c 1 t) (iblk m c 2 t) (iblk m c 3 t) (iblk m c 4 t) (iblk m c 5 t) (iblk m c 6 t) (ix2 p q)
      = entry (m ((c : Thread nD τ).loc main_arg0)) (m ((c : Thread nD τ).loc main_arg1)) (m ((c : Thread nD τ).loc main_arg2)) ⟨t.val * 2048 + p.val, hb⟩ q := by
  unfold out0_7
  rw [View.canon_unit_zero zero_off]
  simp only [View.ld_unit_zero (S := S2048x1024) zero_off, View.ld_unit_zero (S := S1024x512) zero_off,
    View.ld_unit_zero (S := S1024x256) zero_off, View.ld_unit_zero (S := S1x512) zero_off, View.ld_unit_zero (S := S1x256) zero_off]
  exact block_entry (m ((c : Thread nD τ).loc main_arg0)) (m ((c : Thread nD τ).loc main_arg1)) (m ((c : Thread nD τ).loc main_arg2))
    ⟨t.val * 2048 + p.val, hb⟩ (iblk m c 0 t) (iblk m c 1 t) (iblk m c 2 t) (iblk m c 3 t) (iblk m c 4 t)
    (iblk m c 5 t) (iblk m c 6 t) p q
    (fun k => rows_blk m c t p k hb)
    (fun k c' => means8_blk m c t k c' q)
    (fun k c' => means4_blk m c t k c' q)
    (fun c' => norms8_blk m c t c' q)
    (fun c' => (hfin c (ix2 q (cen c'))).elim fun r hr => scale8_blk m c t c' q r hr)
    (fun c' => norms4_blk m c t c' q)
    (fun c' => (hfin c (ix2 q (nod c'))).elim fun r hr => scale4_blk m c t c' q r hr)

/-- What point `t` writes back is block `t` of the layer. -/
theorem flushed_eq (hfin : ∀ (c : Dev nD) (i : S64x12.Idx), ∃ r : ℝ, m ((c : Thread nD τ).loc main_arg2) i = (r : EReal))
    (c : Dev nD) (t : Fin cfg0.N) :
    (dats m 0 c).flushed 7 t = ((cfg0.win 7).blk t).view.read (Elt Ideal) (L m c) := by
  show (cfg0.win 7).cut (grid0.coords t) ((dats m 0 c).after 7 t) = _
  rw [after0_7]
  have ht : t.val < 8 := by have h := t.isLt; have hN : cfg0.N = 8 := N_0; omega
  funext j
  obtain ⟨p, q, rfl⟩ : ∃ (p : Fin 2048) (q : Fin 64), j = ix2 p q := ⟨j 0, j 1, eq_ix2 j⟩
  have hb : t.val * 2048 + p.val < 16384 := by have := p.isLt; omega
  show out0_7 (iblk m c 0 t) (iblk m c 1 t) (iblk m c 2 t) (iblk m c 3 t) (iblk m c 4 t) (iblk m c 5 t) (iblk m c 6 t) (ix2 p q)
    = L m c (((cfg0.win 7).blk t).view.emb (ix2 p q))
  rw [out_emb t p q hb, body_out m hfin c t p q hb]
  rfl

/-- An index of the result is in point `t`'s block iff each coordinate is in the block's range on its axis. -/
theorem mem_block (t : Fin cfg0.N) (i : S16384x64.Idx) :
    i ∈ ((cfg0.win 7).blk t).view.set ↔ ∀ a : Fin 2, win0_7.index t a * S2048x64.size a ≤ (i a).val
      ∧ (i a).val < win0_7.index t a * S2048x64.size a + S2048x64.size a := by
  show i ∈ ((View.whole main_v40).slice (win0_7.rect t)).set ↔ _
  rw [View.set_slice_whole, Rect.mem_set_unit]
  exact Iff.rfl

/-- Every index of the result lies in the block of the point its row belongs to. -/
theorem covered (i : S16384x64.Idx) : ∃ t : Fin cfg0.N, (cfg0.win 7).flush t = true ∧ i ∈ ((cfg0.win 7).blk t).view.set := by
  have hi0 : (i 0).val < 16384 := (i 0).isLt
  have hi1 : (i 1).val < 64 := (i 1).isLt
  have hN : cfg0.N = 8 := N_0
  refine ⟨⟨(i 0).val / 2048, by omega⟩, flush0_7 _, ?_⟩
  rw [mem_block]
  obtain ⟨-, -, -, -, -, -, -, -, -, -, -, -, -, -, e70, e71⟩ := index_maps ⟨(i 0).val / 2048, by omega⟩
  intro a
  match a with
  | ⟨0, _⟩ =>
    show win0_7.index _ (0 : Fin 2) * 2048 ≤ (i 0).val ∧ (i 0).val < win0_7.index _ (0 : Fin 2) * 2048 + 2048
    rw [e70]; show (i 0).val / 2048 * 2048 ≤ (i 0).val ∧ (i 0).val < (i 0).val / 2048 * 2048 + 2048; omega
  | ⟨1, _⟩ =>
    show win0_7.index _ (1 : Fin 2) * 64 ≤ (i 1).val ∧ (i 1).val < win0_7.index _ (1 : Fin 2) * 64 + 64
    rw [e71]; omega

/-- The result array after the run is the layer. -/
theorem final (hfin : ∀ (c : Dev nD) (i : S64x12.Idx), ∃ r : ℝ, m ((c : Thread nD τ).loc main_arg2) i = (r : EReal)) (c : Dev nD) :
    (dats m 0 c).arrAt 7 cfg0.N = L m c :=
  (dats m 0 c).arrAt_eq_of_cover 7 (L m c) (fun t _ => flushed_eq m hfin c t) covered

/-- After the frame run the result array is the one the frame names, and the arguments are as launched. -/
theorem post_result (r : PUnit × MemSt nD τ sig (Elt Ideal)) (h : Pipeline.FramePost cfgs (dats m) 0 (V m) r) (c : Dev nD) :
    r.2.mem ((c : Thread nD τ).loc main_v40) = (dats m 0 c).arrAt 7 cfg0.N :=
  (h c).1 7

theorem kept_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The kernel's run: it ends with the layer in the result array and the arguments unchanged. -/
theorem run (hfin : ∀ (c : Dev nD) (i : S64x12.Idx), ∃ r : ℝ, m ((c : Thread nD τ).loc main_arg2) i = (r : EReal)) :
    θ_run defs (onTc (τ := τ) (main (F := Ideal))) ⟨m, fun _ => 0, ρ⟩ fun r => ∀ c : Dev nD,
      r.2.mem ((c : Thread nD τ).loc main_v40) = L m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post_result m r h c).trans (final m hfin c), kept_arg0 m r h c, kept_arg1 m r h c,
    kept_arg2 m r h c⟩) (run_main m ρ)

end Cert.RadialLayer.Blocks

end
-- ==== Proof.RefLayer.lean ====
/-
  The reference computes the layer.

  Read one operation at a time, the reference's result at `(b, o)` is the layer's entry: its three sums over the 1024
  coordinates are |X b|², |M o c|² and ⟨X b, M o c⟩, its broadcasts only repeat them along the other axes, its maximum over
  the first eight centres is folded from -∞ (so it is the plain maximum), and its sums over the eight centres and the four
  nodes start from zero.
-/
import proofs.«159334_j85272280695304_2_alg».proof.Proof.Gen.ReferenceIdeal.Read
import proofs.«159334_j85272280695304_2_alg».proof.Proof.Spec
import Idealize.ShloMosaic.PureOps.Reduce

noncomputable section

namespace Cert.RadialLayer.Ref

open Idealize.ShloMosaic Idealize.ShloMosaic.ValueIdx Cert.ReferenceIdeal Cert.ReferenceIdeal.Gen Cert.ReferenceIdeal.Read Cert.RadialLayer

variable (X : (⟨S16384x1024, .f32⟩ : BufTy).Contents (Elt Ideal)) (M : (⟨S64x12x1024, .f32⟩ : BufTy).Contents (Elt Ideal))
  (R : (⟨S64x12, .f32⟩ : BufTy).Contents (Elt Ideal))

theorem rowSq_ref (b : Fin 16384) : val_main_v8 (F := Ideal) X (ix1 b) = rowSq X b := by
  rw [val_main_v8_apply]
  show Ideal.ofBits .f32 0x00000000#32 + _ = _
  rw [Ideal.ofBits_zero_f32, zero_add]
  refine Finset.sum_congr rfl fun k _ => ?_
  have e : idx_main_v8 (ix1 b) k = ix2 b k := funext fun a => Fin.ext (by match a with | ⟨0, _⟩ => rfl | ⟨1, _⟩ => rfl)
  rw [e]; rfl

theorem ctrSq_ref (o : Fin 64) (c : Fin 12) : val_main_v10 (F := Ideal) M (ix2 o c) = ctrSq M o c := by
  rw [val_main_v10_apply]
  show Ideal.ofBits .f32 0x00000000#32 + _ = _
  rw [Ideal.ofBits_zero_f32, zero_add]
  refine Finset.sum_congr rfl fun k _ => ?_
  have e : idx_main_v10 (ix2 o c) k = ix3 o c k :=
    funext fun a => Fin.ext (by match a with | ⟨0, _⟩ => rfl | ⟨1, _⟩ => rfl | ⟨2, _⟩ => rfl)
  rw [e]; rfl

theorem cross_ref (b : Fin 16384) (o : Fin 64) (c : Fin 12) : val_main_v11 (F := Ideal) X M (ix3 b o c) = cross X M b o c := by
  rw [val_main_v11_apply]
  refine Finset.sum_congr rfl fun k _ => ?_
  have el : lidx_main_v11 (ix3 b o c) k = ix2 b k := funext fun a => Fin.ext (by match a with | ⟨0, _⟩ => rfl | ⟨1, _⟩ => rfl)
  have er : ridx_main_v11 (ix3 b o c) k = ix3 o c k :=
    funext fun a => Fin.ext (by match a with | ⟨0, _⟩ => rfl | ⟨1, _⟩ => rfl | ⟨2, _⟩ => rfl)
  rw [el, er]

theorem scale_ref (o : Fin 64) (c : Fin 12) : val_main_v6 (F := Ideal) R (ix2 o c) = invTwoVar R o c := by
  rw [val_main_v6_apply, val_main_v5_apply, val_main_v4_apply, val_main_v3_apply, val_main_v2_apply]
  rfl

theorem act_ref (b : Fin 16384) (o : Fin 64) (c : Fin 12) : val_main_v24 (F := Ideal) X M R (ix3 b o c) = act X M R b o c := by
  rw [val_main_v24_apply, val_main_v23_apply, val_main_v20_apply, val_main_v19_apply, val_main_v16_apply, val_main_v18_apply,
    val_main_v17_apply, val_main_v14_apply, val_main_v12_apply, val_main_v15_apply, val_main_v13_apply, val_main_v22_apply,
    val_main_v21_apply]
  have e1 : idx_main_v12 (idx_main_v14 (ix3 b o c)) = ix1 b := funext fun a => Fin.ext (by match a with | ⟨0, _⟩ => rfl)
  have e2 : idx_main_v13 (idx_main_v15 (ix3 b o c)) = ix2 o c :=
    funext fun a => Fin.ext (by match a with | ⟨0, _⟩ => rfl | ⟨1, _⟩ => rfl)
  have e3 : idx_main_v21 (idx_main_v22 (ix3 b o c)) = ix2 o c :=
    funext fun a => Fin.ext (by match a with | ⟨0, _⟩ => rfl | ⟨1, _⟩ => rfl)
  rw [e1, e2, e3, rowSq_ref, ctrSq_ref, cross_ref, scale_ref]
  rfl

theorem maxCentres_ref (b : Fin 16384) (o : Fin 64) :
    val_main_v27 (F := Ideal) X M R (ix2 b o) = max8 (fun c => act X M R b o (cen c)) := by
  unfold val_main_v27
  rw [Host.reduce_eq_fold_single FloatOps.maximumf _ _ reducesTo_S16384x64x8_S16384x64_d2 (by decide) h_S_]
  have hf : (val_main_v25 (F := Ideal) X M R ∘ (by decide : S16384x64x8.Reduces [2] S16384x64).lift (ix2 b o))
      = fun c : Fin 8 => act X M R b o (cen c) := funext fun c => by
    show val_main_v25 (F := Ideal) X M R _ = _
    rw [val_main_v25_apply]
    have e : idx_main_v25 ((by decide : S16384x64x8.Reduces [2] S16384x64).lift (ix2 b o) c) = ix3 b o (cen c) :=
      funext fun a => Fin.ext (by match a with | ⟨0, _⟩ => rfl | ⟨1, _⟩ => rfl | ⟨2, _⟩ => rfl)
    rw [e, act_ref]
  rw [hf]
  exact fold_max_bot_fin8 _

theorem sumCentres_ref (b : Fin 16384) (o : Fin 64) :
    val_main_v30 (F := Ideal) X M R (ix2 b o) = ∑ c : Fin 8, act X M R b o (cen c) := by
  rw [val_main_v30_apply]
  show Ideal.ofBits .f32 0x00000000#32 + _ = _
  rw [Ideal.ofBits_zero_f32, zero_add]
  refine Finset.sum_congr rfl fun k _ => ?_
  rw [val_main_v25_apply]
  have e : idx_main_v25 (idx_main_v30 (ix2 b o) k) = ix3 b o (cen k) :=
    funext fun a => Fin.ext (by match a with | ⟨0, _⟩ => rfl | ⟨1, _⟩ => rfl | ⟨2, _⟩ => rfl)
  rw [e, act_ref]

theorem sumNodes_ref (b : Fin 16384) (o : Fin 64) :
    val_main_v34 (F := Ideal) X M R (ix2 b o) = ∑ c : Fin 4, act X M R b o (nod c) := by
  rw [val_main_v34_apply]
  show Ideal.ofBits .f32 0x00000000#32 + _ = _
  rw [Ideal.ofBits_zero_f32, zero_add]
  refine Finset.sum_congr rfl fun k _ => ?_
  rw [val_main_v26_apply]
  have e : idx_main_v26 (idx_main_v34 (ix2 b o) k) = ix3 b o (nod k) :=
    funext fun a => Fin.ext (by match a with | ⟨0, _⟩ => rfl | ⟨1, _⟩ => rfl | ⟨2, _⟩ => rfl)
  rw [e, act_ref]

/-- The reference's result array is the layer. -/
theorem reference_eq_layer : val_main_v37 (F := Ideal) X M R = layer X M R := by
  funext i
  obtain ⟨b, o, rfl⟩ : ∃ (b : Fin 16384) (o : Fin 64), i = ix2 b o := ⟨i 0, i 1, eq_ix2 i⟩
  rw [layer_apply, val_main_v37_apply, val_main_v33_apply, val_main_v36_apply, val_main_v31_apply, val_main_v29_apply,
    val_main_v28_apply, val_main_v32_apply, val_main_v35_apply, maxCentres_ref, sumCentres_ref, sumNodes_ref]
  rfl

end Cert.RadialLayer.Ref

end
-- ==== Proof.Finite.lean ====
/-
  Under the precondition every width parameter is a real number.

  The precondition's third conjunct says that, at every index, |r| < +∞ where `r` is the parameter array's entry; an
  extended real whose absolute value max(r, -r) is below +∞ is neither infinity.
-/
import proofs.«159334_j85272280695304_2_alg».proof.Pre_finite_inputs
import Idealize.ShloMosaic.Lib.ReduceAll
import Idealize.ShloMosaic.Lib.ValueIdx
import Idealize.ShloMosaic.PureOps.Ideal

noncomputable section

namespace Cert.RadialLayer.Finite

open Idealize.ShloMosaic Idealize.ShloMosaic.ValueIdx Cert.Pre_finite_inputs

instance : Subsingleton S_.Idx := ⟨fun a b => funext fun d => d.elim0⟩

theorem real_of_abs_lt_top (x : EReal) (h : Ideal.cmp .olt (max x (-x)) (Ideal.ofBits .f32 0x7F800000#32) = 1#1) :
    ∃ r : ℝ, x = (r : EReal) := by
  have ht : Ideal.ofBits .f32 0x7F800000#32 = (⊤ : EReal) := by simp [Ideal.ofBits, Ideal.ieee]
  rw [ht] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x using EReal.rec with
  | bot => simp at hlt
  | coe r => exact ⟨r, rfl⟩
  | top => simp at hlt

theorem rho_real [Facts] (X : FVec Ideal S16384x1024 .f32) (M : FVec Ideal S64x12x1024 .f32) (R : FVec Ideal S64x12 .f32)
    (h : fn (F := Ideal) X M R = fun _ => 1#1) (i : S64x12.Idx) : ∃ r : ℝ, R i = (r : EReal) := by
  have h0 := congrFun h ix0
  dsimp only [fn] at h0
  have h1 := (IntOp.andi_eq_one.1 h0).2
  have h2 := Host.reduce_andi_all _ _ _ _ _ h1 i
  exact real_of_abs_lt_top (R i) h2

end Cert.RadialLayer.Finite

end
-- ==== Proof.lean ====
/-
  A radial-basis layer: the kernel against its plain reference, on the extended reals.

  Both programs compute, for a row `b` of `X` and a class `o`,
    ( max over eight centres · 9 - their sum ) / 8 - ( sum over four extra nodes ) / 4
  of the Gaussian activations exp ( -( (|X b|² + |M o c|²) - 2·⟨X b, M o c⟩ ) / (2·σ·σ) ), σ = log (1 + exp (R o c)).
  The reference does it directly over a [16384, 64, 12] array. The kernel first re-lays the centres' rows, squared norms and
  scales so that column 64·c + o belongs to centre (o, c), then works on blocks of 2048 rows: two matrix products give the
  cross terms, and bands of 64 columns are combined one after another. A change of float format is the identity on the
  extended reals, a matrix product into a zero accumulator is the plain sum, 0 - d is -d, a maximum folded from -∞ is the
  maximum, and sums may be taken in any order. The one place where finiteness of the inputs is used is the width: the
  kernel computes it in the stable form max(0, r) + log (1 + exp (-|0 - r|)), which is log (1 + exp r) for real r.

  Modules: Spec (the layer as one function, and the width identity), RefLayer (the reference is the layer), Payload and
  Combine (the body's blocks at an index), Glue (the prepared arrays at an index), Blocks (from the blocks to the array),
  Finite (the width parameters are real under the precondition). The kernel's and the idealized kernel's frames are the
  generated ones; the reference's frame is its generated run with the result dropped; the idealization rewrote nothing.
-/
import proofs.«159334_j85272280695304_2_alg».proof.Defs
import proofs.«159334_j85272280695304_2_alg».proof.Proof.Gen.Kernel
import proofs.«159334_j85272280695304_2_alg».proof.Proof.Gen.Kernel.Skeleton
import proofs.«159334_j85272280695304_2_alg».proof.Proof.Gen.Kernel.Launch
import proofs.«159334_j85272280695304_2_alg».proof.Proof.Gen.Kernel.Points
import proofs.«159334_j85272280695304_2_alg».proof.Proof.Gen.Kernel.Frame
import proofs.«159334_j85272280695304_2_alg».proof.Proof.Gen.KernelIdeal
import proofs.«159334_j85272280695304_2_alg».proof.Proof.Gen.KernelIdeal.Skeleton
import proofs.«159334_j85272280695304_2_alg».proof.Proof.Gen.KernelIdeal.Launch
import proofs.«159334_j85272280695304_2_alg».proof.Proof.Gen.KernelIdeal.Points
import proofs.«159334_j85272280695304_2_alg».proof.Proof.Gen.KernelIdeal.Frame
import proofs.«159334_j85272280695304_2_alg».proof.Proof.Gen.ReferenceIdeal
import proofs.«159334_j85272280695304_2_alg».proof.Proof.Gen.Pre_finite_inputs
import proofs.«159334_j85272280695304_2_alg».proof.Proof.Gen.ReferenceIdeal.Run
import proofs.«159334_j85272280695304_2_alg».proof.Proof.Gen.ReferenceIdeal.Read
import proofs.«159334_j85272280695304_2_alg».proof.Proof.Blocks
import proofs.«159334_j85272280695304_2_alg».proof.Proof.RefLayer
import proofs.«159334_j85272280695304_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the layer of the (agreeing) arguments in their result arrays. -/
theorem algebraic : Cert.algebraic_KernelIdeal_ReferenceIdeal := by
  intro m ρ m' ρ' hpre hagree
  have hfin : ∀ (c : Dev Cert.KernelIdeal.nD) (i : Cert.KernelIdeal.S64x12.Idx),
      ∃ r : ℝ, m ((c : Thread Cert.KernelIdeal.nD Cert.KernelIdeal.τ).loc Cert.KernelIdeal.main_arg2) i = (r : EReal) :=
    fun c i => Cert.RadialLayer.Finite.rho_real _ _ _ (hpre c) i
  refine ⟨fun c => Cert.RadialLayer.Blocks.L m c, Cert.RadialLayer.Blocks.run m ρ hfin, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v37_eq, Cert.RadialLayer.Ref.reference_eq_layer, (hagree c).1, (hagree c).2.1,
    (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
